-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x1000x16 : Shape := ⟨4, ![32, 64, 1000, 16]⟩
abbrev S_ : Shape := ⟨0, ![]⟩

class Facts : Prop where
  bcast_S_S32x64x1000x16 : S_.BroadcastsInDim S32x64x1000x16 (![] : Fin 0 → Fin S32x64x1000x16.rank)
  reducesTo_S32x64x1000x16_S_d0_1_2_3 : S32x64x1000x16.ReducesTo [0, 1, 2, 3] S_
  h_S_ : 0 < S_.numel

variable [Facts]

def fn {F : FTy → Type} [FloatOps F] (main_arg0 : FVec F S32x64x1000x16 .f32) : IVec S_ 1 :=
  let main_v0 : FVec F S32x64x1000x16 .f32 := Host.absf main_arg0
  let main_cst : FVec F S_ .f32 := constant S_ .f32 0x7F800000#32
  let main_v1 : FVec F S32x64x1000x16 .f32 := broadcastInDim S32x64x1000x16 ![] bcast_S_S32x64x1000x16 main_cst
  let main_v2 : IVec S32x64x1000x16 1 := cmpf .olt main_v0 main_v1
  let main_c : IVec S_ 1 := constantI S_ 1 1#1
  let main_v3 : IVec S_ 1 := (fun x v => Host.reduce IntOp.andi x v reducesTo_S32x64x1000x16_S_d0_1_2_3 h_S_) main_v2 main_c
  main_v3
-- ==== Kernel.lean ====
abbrev S32x64x1000x16 : Shape := ⟨4, ![32, 64, 1000, 16]⟩
abbrev S32x64x64x16 : Shape := ⟨4, ![32, 64, 64, 16]⟩
abbrev S1x64x1000x16 : Shape := ⟨4, ![1, 64, 1000, 16]⟩
abbrev S1x64x64x16 : Shape := ⟨4, ![1, 64, 64, 16]⟩
abbrev S64x1000x16 : Shape := ⟨3, ![64, 1000, 16]⟩
abbrev S16x64x1000 : Shape := ⟨3, ![16, 64, 1000]⟩
abbrev S16x64 : Shape := ⟨2, ![16, 64]⟩
abbrev S16x64x64 : Shape := ⟨3, ![16, 64, 64]⟩
abbrev S16x64x1 : Shape := ⟨3, ![16, 64, 1]⟩
abbrev S16x1x64 : Shape := ⟨3, ![16, 1, 64]⟩
abbrev S64x64x16 : Shape := ⟨3, ![64, 64, 16]⟩

abbrev nBuf : Space → Nat
  | .hbm => 2
  | .vmem => 4
  | .smem => 0
  | _ => 0

abbrev bufTy : (tb : Table) → Fin (tcTables nBuf tb) → BufTy
  | .hbm, ⟨0, _⟩ => ⟨S32x64x1000x16, .f32⟩
  | .hbm, ⟨1, _⟩ => ⟨S32x64x64x16, .f32⟩
  | .local _ .vmem, ⟨0, _⟩ => ⟨S1x64x1000x16, .f32⟩
  | .local _ .vmem, ⟨1, _⟩ => ⟨S1x64x1000x16, .f32⟩
  | .local _ .vmem, ⟨2, _⟩ => ⟨S1x64x64x16, .f32⟩
  | .local _ .vmem, ⟨3, _⟩ => ⟨S1x64x64x16, .f32⟩
  | _, _ => ⟨S32x64x1000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x1000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x64x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x64x1000x16_S1x64x1000x16_0_0_0_0 : ∀ a, (![0, 0, 0, 0] : Fin 4 → Nat) a + S1x64x1000x16.size a ≤ S1x64x1000x16.size a
  h_S1x64x1000x16 : 0 < S1x64x1000x16.numel
  shapeCasts_S1x64x1000x16_S64x1000x16 : S1x64x1000x16.ShapeCasts S64x1000x16
  transposes_S64x1000x16_p2_0_1_S16x64x1000 : S64x1000x16.Transposes [2, 0, 1] S16x64x1000
  reduces_S16x64x1000_S16x64 : S16x64x1000.Reduces [2] S16x64
  shapeCasts_S16x64_S16x64x1 : S16x64.ShapeCasts S16x64x1
  shapeCasts_S16x64_S16x1x64 : S16x64.ShapeCasts S16x1x64
  broadcasts_S16x64x1_S16x64x64 : S16x64x1.Broadcasts S16x64x64
  broadcasts_S16x1x64_S16x64x64 : S16x1x64.Broadcasts S16x64x64
  transposes_S16x64x64_p1_2_0_S64x64x16 : S16x64x64.Transposes [1, 2, 0] S64x64x16
  inb_S1x64x64x16_S1x64x64x16_0_0_0_0 : ∀ a, (![0, 0, 0, 0] : Fin 4 → Nat) a + S1x64x64x16.size a ≤ S1x64x64x16.size a
  h_S1x64x64x16 : 0 < S1x64x64x16.numel
  shapeCasts_S1x64x64x16_S64x64x16 : S1x64x64x16.ShapeCasts S64x64x16
  shapeCasts_S64x64x16_S1x64x64x16 : S64x64x16.ShapeCasts S1x64x64x16
  dot_S16x64x1000_S16x64x1000_S16x64x64_2_2_1_1_0_0_wf : DotDims.WF S16x64x1000 S16x64x1000 S16x64x64 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x1000x16.size a ≤ S32x64x1000x16.size a
  hwx0_0 : ∀ i : grid0.Coords, EltTy.bits .f32 = 32 ∨ (Rect.block (s := S32x64x1000x16) S1x64x1000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64x16.size a ≤ S32x64x64x16.size a
  hwx0_1 : ∀ i : grid0.Coords, EltTy.bits .f32 = 32 ∨ (Rect.block (s := S32x64x64x16) S1x64x64x16.size (cc0_transform_1 i) (hinb0_1 i)).WholeWords (EltTy.packing .f32)

variable [Facts₀]

def dot_S16x64x1000_S16x64x1000_S16x64x64_2_2_1_1_0_0 : DotDims S16x64x1000 S16x64x1000 S16x64x64 where
  lhsContracting := [2]
  rhsContracting := [2]
  lhsNonContracting := [1]
  rhsNonContracting := [1]
  lhsBatch := [0]
  rhsBatch := [0]
  wf := dot_S16x64x1000_S16x64x1000_S16x64x64_2_2_1_1_0_0_wf

abbrev win0_0 : Pipeline.Window sig grid0 :=
  Pipeline.Window.ofSpec (Memref.whole main_arg0) S1x64x1000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64x64x16.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x64x1000x16 : Shape := ⟨4, ![32, 64, 1000, 16]⟩
abbrev S32x16x64x1000 : Shape := ⟨4, ![32, 16, 64, 1000]⟩
abbrev S_ : Shape := ⟨0, ![]⟩
abbrev S32x16x64 : Shape := ⟨3, ![32, 16, 64]⟩
abbrev S32x16x64x64 : Shape := ⟨4, ![32, 16, 64, 64]⟩
abbrev S32x16x64x1 : Shape := ⟨4, ![32, 16, 64, 1]⟩
abbrev S32x16x1x64 : Shape := ⟨4, ![32, 16, 1, 64]⟩
abbrev S32x64x64x16 : Shape := ⟨4, ![32, 64, 64, 16]⟩

abbrev nBuf : Space → Nat
  | .hbm => 24
  | .vmem => 0
  | .smem => 0
  | _ => 0

abbrev bufTy : (tb : Table) → Fin (tcTables nBuf tb) → BufTy
  | .hbm, ⟨0, _⟩ => ⟨S32x64x1000x16, .f32⟩
  | .hbm, ⟨1, _⟩ => ⟨S32x16x64x1000, .f32⟩
  | .hbm, ⟨2, _⟩ => ⟨S32x16x64x1000, .f32⟩
  | .hbm, ⟨3, _⟩ => ⟨S_, .f32⟩
  | .hbm, ⟨4, _⟩ => ⟨S32x16x64, .f32⟩
  | .hbm, ⟨5, _⟩ => ⟨S32x16x64x64, .f32⟩
  | .hbm, ⟨6, _⟩ => ⟨S32x16x64x1, .f32⟩
  | .hbm, ⟨7, _⟩ => ⟨S32x16x1x64, .f32⟩
  | .hbm, ⟨8, _⟩ => ⟨S32x16x64x64, .f32⟩
  | .hbm, ⟨9, _⟩ => ⟨S32x16x64x64, .f32⟩
  | .hbm, ⟨10, _⟩ => ⟨S32x16x64x64, .f32⟩
  | .hbm, ⟨11, _⟩ => ⟨S_, .f32⟩
  | .hbm, ⟨12, _⟩ => ⟨S32x16x64x64, .f32⟩
  | .hbm, ⟨13, _⟩ => ⟨S32x16x64x64, .f32⟩
  | .hbm, ⟨14, _⟩ => ⟨S32x16x64x64, .f32⟩
  | .hbm, ⟨15, _⟩ => ⟨S_, .f32⟩
  | .hbm, ⟨16, _⟩ => ⟨S32x16x64x64, .f32⟩
  | .hbm, ⟨17, _⟩ => ⟨S32x16x64x64, .f32⟩
  | .hbm, ⟨18, _⟩ => ⟨S32x64x64x16, .f32⟩
  | .hbm, ⟨19, _⟩ => ⟨S32x64x64x16, .f32⟩
  | .hbm, ⟨20, _⟩ => ⟨S_, .f32⟩
  | .hbm, ⟨21, _⟩ => ⟨S32x64x64x16, .f32⟩
  | .hbm, ⟨22, _⟩ => ⟨S32x64x64x16, .f32⟩
  | .hbm, ⟨23, _⟩ => ⟨S32x64x64x16, .f32⟩
  | _, _ => ⟨S32x64x1000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_2 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]

class Facts₀ : Prop where
  transposes_S32x64x1000x16_S32x16x64x1000_0_3_1_2 : S32x64x1000x16.Transposes [0, 3, 1, 2] S32x16x64x1000
  reducesTo_S32x16x64x1000_S32x16x64_d3 : S32x16x64x1000.ReducesTo [3] S32x16x64
  h_S_ : 0 < S_.numel
  bcast_S32x16x64_S32x16x64x1_0_1_2 : S32x16x64.BroadcastsInDim S32x16x64x1 (![0, 1, 2] : Fin 3 → Fin S32x16x64x1.rank)
  bcast_S32x16x64_S32x16x1x64_0_1_3 : S32x16x64.BroadcastsInDim S32x16x1x64 (![0, 1, 3] : Fin 3 → Fin S32x16x1x64.rank)
  bcast_S32x16x64x1_S32x16x64x64_0_1_2_3 : S32x16x64x1.BroadcastsInDim S32x16x64x64 (![0, 1, 2, 3] : Fin 4 → Fin S32x16x64x64.rank)
  bcast_S32x16x1x64_S32x16x64x64_0_1_2_3 : S32x16x1x64.BroadcastsInDim S32x16x64x64 (![0, 1, 2, 3] : Fin 4 → Fin S32x16x64x64.rank)
  bcast_S_S32x16x64x64 : S_.BroadcastsInDim S32x16x64x64 (![] : Fin 0 → Fin S32x16x64x64.rank)
  transposes_S32x16x64x64_S32x64x64x16_0_2_3_1 : S32x16x64x64.Transposes [0, 2, 3, 1] S32x64x64x16
  bcast_S_S32x64x64x16 : S_.BroadcastsInDim S32x64x64x16 (![] : Fin 0 → Fin S32x64x64x16.rank)
  dot_S32x16x64x1000_S32x16x64x1000_S32x16x64x64_3_3_2_2_01_01_wf : DotDims.WF S32x16x64x1000 S32x16x64x1000 S32x16x64x64 [3] [3] [2] [2] [0, 1] [0, 1]

variable [Facts₀]

def dot_S32x16x64x1000_S32x16x64x1000_S32x16x64x64_3_3_2_2_01_01 : DotDims S32x16x64x1000 S32x16x64x1000 S32x16x64x64 where
  lhsContracting := [3]
  rhsContracting := [3]
  lhsNonContracting := [2]
  rhsNonContracting := [2]
  lhsBatch := [0, 1]
  rhsBatch := [0, 1]
  wf := dot_S32x16x64x1000_S32x16x64x1000_S32x16x64x64_3_3_2_2_01_01_wf

class Facts : Prop extends Facts₀ where

variable [Facts]
-- ==== Proof.GaussSpec.lean ====
/-
  The mathematics of the Gaussian kernel matrix, with no program in sight.

  One batch element is a slab `s c t f` of 64 channels, 1000 time samples and 16 features, read on the extended
  reals. For a feature `f` and two channels `c`, `d`:
    sqNorm s f c   = ∑ₜ s c t f · s c t f                       (squared length of channel c's time series)
    inner s f c d  = ∑ₜ s c t f · s d t f                       (inner product of the two series)
    dist2 s f c d  = max ((sqNorm c + sqNorm d) − 2 · inner) 0  (squared distance, clipped at zero)
    gauss s c d f  = exp (dist2 · (−½))
  and the whole result array reads, at (n, c, d, f), `gauss` of batch element n's slab.
  The one algebraic step between the two programs is that halving after a negation is the product with −½,
  on every extended real: `neg_div_two`.
-/
import Idealize.ShloMosaic.PureOps.Ideal
import Idealize.ShloMosaic.Lib.ValueIdx

noncomputable section

open scoped BigOperators

namespace Cert.GaussSpec

open Idealize.ShloMosaic Idealize.ShloMosaic.ValueIdx

/-- One batch element: channel, time sample, feature. -/
abbrev Slab := Fin 64 → Fin 1000 → Fin 16 → EReal

/-- The squared length of channel `c`'s time series at feature `f`. -/
def sqNorm (s : Slab) (f : Fin 16) (c : Fin 64) : EReal := ∑ t : Fin 1000, s c t f * s c t f

/-- The inner product of channels `c` and `d` over time at feature `f`. -/
def inner (s : Slab) (f : Fin 16) (c d : Fin 64) : EReal := ∑ t : Fin 1000, s c t f * s d t f

/-- The squared distance ‖c‖² + ‖d‖² − 2⟨c, d⟩, clipped below at zero. The literals are the words for 2 and 0. -/
def dist2 (s : Slab) (f : Fin 16) (c d : Fin 64) : EReal :=
  max ((sqNorm s f c + sqNorm s f d) - Ideal.ofBits .f32 0x40000000#32 * inner s f c d) (Ideal.ofBits .f32 0x00000000#32)

/-- The Gaussian of the distance with σ = 1: exp (d² · (−½)). The literal is the word for −½. -/
def gauss (s : Slab) (c d : Fin 64) (f : Fin 16) : EReal :=
  Ideal.exp (dist2 s f c d * Ideal.ofBits .f32 0xBF000000#32)

/-- Batch element `n` of the input array. -/
def slabAt (x : (⟨4, ![32, 64, 1000, 16]⟩ : Shape).Idx → EReal) (n : Fin 32) : Slab := fun c t f => x (ix4 n c t f)

/-- The whole result: at (n, c, d, f) the Gaussian of batch element n's distance between channels c and d at feature f. -/
def gram (x : (⟨4, ![32, 64, 1000, 16]⟩ : Shape).Idx → EReal) : (⟨4, ![32, 64, 64, 16]⟩ : Shape).Idx → EReal :=
  fun i => gauss (slabAt x (i 0)) (i 1) (i 2) (i 3)

/-- The word `0x40000000` denotes 2. -/
theorem ofBits_two : Ideal.ofBits .f32 0x40000000#32 = ((2 : ℝ) : EReal) := by
  simp [Ideal.ofBits, Ideal.ieee, -EReal.coe_mul]; norm_num

/-- The word `0xBF000000` denotes −½. -/
theorem ofBits_neg_half : Ideal.ofBits .f32 0xBF000000#32 = ((-(1 / 2) : ℝ) : EReal) := by
  simp [Ideal.ofBits, Ideal.ieee, -EReal.coe_mul]; norm_num

/-- Negating and then dividing by 2 is multiplying by −½, at the infinities too: both are −(d · ½). -/
theorem neg_div_two (d : EReal) :
    Ideal.div (-d) (Ideal.ofBits .f32 0x40000000#32) = d * Ideal.ofBits .f32 0xBF000000#32 := by
  rw [ofBits_two, ofBits_neg_half, Ideal.div_coe (by norm_num : (2 : ℝ) ≠ 0), EReal.coe_neg, neg_mul, mul_neg]

end Cert.GaussSpec

end
-- ==== Proof.LibCubeLayout.lean ====
/-
  Rank-3 arrays re-laid, each operation read at an index written by its three coordinates.

  * the two cyclic rotations of the axes: an [a, b, c] array transposed by [2, 0, 1] is the [c, a, b] array whose
    entry (k, i, j) is the operand's (i, j, k); transposed by [1, 2, 0] it is the [b, c, a] array whose entry
    (j, k, i) is the operand's (i, j, k);
  * a matrix given a trailing or a middle unit axis: an [a, b] array cast to [a, b, 1] or to [a, 1, b] still
    reads the operand at (i, j);
  * those unit axes spread: an [a, b, 1] array broadcast to [a, b, c] reads, at (i, j, k), the operand at
    (i, j, 0) — a per-(i, j) value repeated along the last axis — and an [a, 1, b] array broadcast to [a, c, b]
    reads, at (i, k, j), the operand at (i, 0, j) — repeated along the middle axis.
  Together the last two pairs are how an [a, b] table of row quantities becomes the two [a, b, b] tables
  "quantity of the row index" and "quantity of the column index" of a pairwise expression.
-/
import Idealize.ShloMosaic.Lib.Pipeline.Value
import Idealize.ShloMosaic.Lib.ValueIdx

namespace Cert.CubeLayout

open Idealize.ShloMosaic Idealize.ShloMosaic.ValueIdx

variable {α : Type}

/-- An [a, b, c] array with its last axis rotated to the front reads, at (k, i, j), the operand at (i, j, k). -/
theorem transpose_ix3_201_apply {a b c : ℕ} (x : (⟨3, ![a, b, c]⟩ : Shape).Idx → α)
    (h : (⟨3, ![a, b, c]⟩ : Shape).Transposes [2, 0, 1] ⟨3, ![c, a, b]⟩) (k : Fin c) (i : Fin a) (j : Fin b) :
    transpose ⟨3, ![c, a, b]⟩ [2, 0, 1] x h (ix3 k i j) = x (ix3 i j k) :=
  transpose_apply _ x h _ _ fun d => match d with | ⟨0, _⟩ => rfl | ⟨1, _⟩ => rfl | ⟨2, _⟩ => rfl

/-- An [a, b, c] array with its first axis rotated to the back reads, at (j, k, i), the operand at (i, j, k). -/
theorem transpose_ix3_120_apply {a b c : ℕ} (x : (⟨3, ![a, b, c]⟩ : Shape).Idx → α)
    (h : (⟨3, ![a, b, c]⟩ : Shape).Transposes [1, 2, 0] ⟨3, ![b, c, a]⟩) (j : Fin b) (k : Fin c) (i : Fin a) :
    transpose ⟨3, ![b, c, a]⟩ [1, 2, 0] x h (ix3 j k i) = x (ix3 i j k) :=
  transpose_apply _ x h _ _ fun d => match d with | ⟨0, _⟩ => rfl | ⟨1, _⟩ => rfl | ⟨2, _⟩ => rfl

/-- An [a, b] array cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b] array cast to [a, 1, b] reads, at (i, u, j), the operand at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An [a, b, 1] array broadcast to [a, b, c] reads, at (i, j, k), the operand at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An [a, 1, b] array broadcast to [a, c, b] reads, at (i, k, j), the operand at (i, 0, j). -/
theorem broadcastTo_a1b_acb_apply {a b c : ℕ} (v : (⟨3, ![a, 1, b]⟩ : Shape).Idx → α)
    (h : (⟨3, ![a, 1, b]⟩ : Shape).Broadcasts ⟨3, ![a, c, b]⟩) (i : Fin a) (k : Fin c) (j : Fin b) :
    broadcastTo ⟨3, ![a, c, b]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

end Cert.CubeLayout
-- ==== Proof.BodyValue.lean ====
/-
  What the kernel body stores for one batch element, read at an index.

  The body loads a [1, 64, 1000, 16] block (channel, time, feature), brings the feature axis to the front, and from
  that [16, 64, 1000] array takes the per-(feature, channel) sums of squares over time and the batched product
  over time of the array with itself; it spreads the sums of squares along rows and along columns, forms
  ‖c‖² + ‖d‖² − 2⟨c, d⟩, clips at zero, moves the feature axis to the back, scales by −½ and exponentiates.
  Entry (0, c, d, f) of what it stores is therefore `GaussSpec.gauss` of the block's slab at (c, d, f).
-/
import proofs.«106653_j46033459478723_1_alg».proof.Proof.Gen.KernelIdeal.Skeleton
import proofs.«106653_j46033459478723_1_alg».proof.Proof.GaussSpec
import proofs.«106653_j46033459478723_1_alg».proof.Proof.LibCubeLayout
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.GaussSpec Cert.CubeLayout

/-- The slab a [1, 64, 1000, 16] block holds: its one batch element. -/
def slabOf (x0 : FVec Ideal S1x64x1000x16 .f32) : Slab := fun c t f => x0 (ix4 (0 : Fin 1) c t f)

/-- The block with its unit axis dropped and the feature axis brought to the front reads, at (f, c, t), the slab
    at (c, t, f). -/
theorem featFirst_apply (x0 : FVec Ideal S1x64x1000x16 .f32) (h1 : S1x64x1000x16.ShapeCasts S64x1000x16)
    (h2 : S64x1000x16.Transposes [2, 0, 1] S16x64x1000) (f : Fin 16) (c : Fin 64) (t : Fin 1000) :
    transpose S16x64x1000 [2, 0, 1] (shapeCast S64x1000x16 x0 h1) h2 (ix3 f c t) = slabOf x0 c t f :=
  (transpose_ix3_201_apply _ h2 f c t).trans (shapeCast_1abc_abc_apply x0 h1 c t f)

/-- The sum over time of the squares: the lane reduction of the array times itself at (f, c). -/
theorem rowSquares_apply (v : FVec Ideal S16x64x1000 .f32) (h : S16x64x1000.Reduces [2] S16x64) (hφ : FKind.Formats .f32)
    (hacc : (0x00000000#32 : BitVec 32) = 0x00000000#32) (f : Fin 16) (c : Fin 64) :
    multiReduction .add [2] S16x64 (mulf v v) 0x00000000#32 h hφ hacc (ix2 f c)
      = ∑ t : Fin 1000, v (ix3 f c t) * v (ix3 f c t) :=
  (Ideal.multiReduction_add_single (mulf v v) 0x00000000#32 h hφ hacc (ix2 f c)).trans
    (Finset.sum_congr rfl fun t _ => by
      have e : h.lift (ix2 f c) t = ix3 f c t := funext fun a => Fin.ext (by
        match a with
        | ⟨0, _⟩ => rfl
        | ⟨1, _⟩ => rfl
        | ⟨2, _⟩ => rfl)
      show v (h.lift (ix2 f c) t) * v (h.lift (ix2 f c) t) = _
      rw [e]
      rfl)

/-! ## The batched product over time -/

theorem lhs0 (i : S16x64x64.Idx) (q : dot_S16x64x1000_S16x64x1000_S16x64x64_2_2_1_1_0_0.contr.Idx) :
    (dot_S16x64x1000_S16x64x1000_S16x64x64_2_2_1_1_0_0.lhsIdx i q 0).val = (i 0).val := by
  unfold DotDims.lhsIdx
  rw [dif_pos (show (0 : Fin S16x64x1000.rank) ∈ dot_S16x64x1000_S16x64x1000_S16x64x64_2_2_1_1_0_0.lhsBatch by decide)]
  rfl
theorem lhs1 (i : S16x64x64.Idx) (q : dot_S16x64x1000_S16x64x1000_S16x64x64_2_2_1_1_0_0.contr.Idx) :
    (dot_S16x64x1000_S16x64x1000_S16x64x64_2_2_1_1_0_0.lhsIdx i q 1).val = (i 1).val := by
  unfold DotDims.lhsIdx
  rw [dif_neg (show ¬(1 : Fin S16x64x1000.rank) ∈ dot_S16x64x1000_S16x64x1000_S16x64x64_2_2_1_1_0_0.lhsBatch by decide),
    dif_pos (show (1 : Fin S16x64x1000.rank) ∈ dot_S16x64x1000_S16x64x1000_S16x64x64_2_2_1_1_0_0.lhsNonContracting by decide)]
  rfl
theorem lhs2 (i : S16x64x64.Idx) (q : dot_S16x64x1000_S16x64x1000_S16x64x64_2_2_1_1_0_0.contr.Idx) :
    (dot_S16x64x1000_S16x64x1000_S16x64x64_2_2_1_1_0_0.lhsIdx i q 2).val = (q ⟨0, by decide⟩).val :=
  dot_S16x64x1000_S16x64x1000_S16x64x64_2_2_1_1_0_0.lhsIdx_val_of_single rfl i q
theorem rhs0 (i : S16x64x64.Idx) (q : dot_S16x64x1000_S16x64x1000_S16x64x64_2_2_1_1_0_0.contr.Idx) :
    (dot_S16x64x1000_S16x64x1000_S16x64x64_2_2_1_1_0_0.rhsIdx i q 0).val = (i 0).val := by
  unfold DotDims.rhsIdx
  rw [dif_pos (show (0 : Fin S16x64x1000.rank) ∈ dot_S16x64x1000_S16x64x1000_S16x64x64_2_2_1_1_0_0.rhsBatch by decide)]
  rfl
theorem rhs1 (i : S16x64x64.Idx) (q : dot_S16x64x1000_S16x64x1000_S16x64x64_2_2_1_1_0_0.contr.Idx) :
    (dot_S16x64x1000_S16x64x1000_S16x64x64_2_2_1_1_0_0.rhsIdx i q 1).val = (i 2).val := by
  unfold DotDims.rhsIdx
  rw [dif_neg (show ¬(1 : Fin S16x64x1000.rank) ∈ dot_S16x64x1000_S16x64x1000_S16x64x64_2_2_1_1_0_0.rhsBatch by decide),
    dif_pos (show (1 : Fin S16x64x1000.rank) ∈ dot_S16x64x1000_S16x64x1000_S16x64x64_2_2_1_1_0_0.rhsNonContracting by decide)]
  rfl
theorem rhs2 (i : S16x64x64.Idx) (q : dot_S16x64x1000_S16x64x1000_S16x64x64_2_2_1_1_0_0.contr.Idx) :
    (dot_S16x64x1000_S16x64x1000_S16x64x64_2_2_1_1_0_0.rhsIdx i q 2).val = (q ⟨0, by decide⟩).val :=
  dot_S16x64x1000_S16x64x1000_S16x64x64_2_2_1_1_0_0.rhsIdx_val_of_single rfl i q

/-- The product of the [16, 64, 1000] array with itself, batched over the feature and contracted over time, into
    zero: at (f, c, d) the sum over time of entry (f, c, t) times entry (f, d, t). -/
theorem pairProducts_apply (v : FVec Ideal S16x64x1000 .f32) (f : Fin 16) (c d : Fin 64) :
    matmul (F := Ideal) dot_S16x64x1000_S16x64x1000_S16x64x64_2_2_1_1_0_0 none v v (constant (F := Ideal) S16x64x64 .f32 0x00000000#32) (ix3 f c d)
      = ∑ t : Fin 1000, v (ix3 f c t) * v (ix3 f d t) := by
  simp only [matmul]
  rw [Ideal.matmul_constant_zero_apply, ← Equiv.sum_comp (contrEquiv1 dot_S16x64x1000_S16x64x1000_S16x64x64_2_2_1_1_0_0 1000 rfl rfl).symm]
  refine Finset.sum_congr rfl fun k _ => ?_
  have hk := contrEquiv1_symm_val dot_S16x64x1000_S16x64x1000_S16x64x64_2_2_1_1_0_0 1000 rfl rfl k
  have el : dot_S16x64x1000_S16x64x1000_S16x64x64_2_2_1_1_0_0.lhsIdx (ix3 f c d) ((contrEquiv1 dot_S16x64x1000_S16x64x1000_S16x64x64_2_2_1_1_0_0 1000 rfl rfl).symm k) = ix3 f c k := funext fun a => Fin.ext (by
    match a with
    | ⟨0, _⟩ => exact lhs0 _ _
    | ⟨1, _⟩ => exact lhs1 _ _
    | ⟨2, _⟩ => exact (lhs2 _ _).trans hk)
  have er : dot_S16x64x1000_S16x64x1000_S16x64x64_2_2_1_1_0_0.rhsIdx (ix3 f c d) ((contrEquiv1 dot_S16x64x1000_S16x64x1000_S16x64x64_2_2_1_1_0_0 1000 rfl rfl).symm k) = ix3 f d k := funext fun a => Fin.ext (by
    match a with
    | ⟨0, _⟩ => exact rhs0 _ _
    | ⟨1, _⟩ => exact rhs1 _ _
    | ⟨2, _⟩ => exact (rhs2 _ _).trans hk)
  rw [el, er]

/-! ## What the body stores -/

/-- Entry (u, c, d, f) of the stored block is the Gaussian of the squared distance between channels c and d of
    the block's slab at feature f. -/
theorem stored_apply (x0 : FVec Ideal S1x64x1000x16 .f32) (u : Fin 1) (c d : Fin 64) (f : Fin 16) :
    k0_pay1 (F := Ideal) x0 (ix4 u c d f) = gauss (slabOf x0) c d f := by
  unfold k0_pay1
  dsimp only
  refine (shapeCast_abc_1abc_apply _ _ u c d f).trans ?_
  have hx : ∀ (f : Fin 16) (c : Fin 64) (t : Fin 1000),
      transpose S16x64x1000 [2, 0, 1] (shapeCast S64x1000x16 x0 shapeCasts_S1x64x1000x16_S64x1000x16)
        transposes_S64x1000x16_p2_0_1_S16x64x1000 (ix3 f c t) = slabOf x0 c t f :=
    fun f c t => featFirst_apply x0 _ _ f c t
  generalize transpose S16x64x1000 [2, 0, 1] (shapeCast S64x1000x16 x0 shapeCasts_S1x64x1000x16_S64x1000x16)
    transposes_S64x1000x16_p2_0_1_S16x64x1000 = xt at hx ⊢
  show Ideal.exp (transpose S64x64x16 [1, 2, 0] _ transposes_S16x64x64_p1_2_0_S64x64x16 (ix3 c d f) * Ideal.ofBits .f32 0xBF000000#32) = _
  rw [transpose_ix3_120_apply]
  simp only [maximumf_apply, subf_apply, addf_apply, mulf_apply, broadcast_apply]
  rw [broadcastTo_ab1_abc_apply, broadcastTo_a1b_acb_apply, shapeCast_ab_ab1_apply, shapeCast_ab_a1b_apply,
    rowSquares_apply, rowSquares_apply, pairProducts_apply]
  simp only [hx]
  rfl

end Cert.KernelIdeal.Body

end
-- ==== Proof.KernelArray.lean ====
/-
  From the blocks the grid points write to the whole result array.

  The grid has one point per batch element. Point t stages block t of the input — batch element t, all channels,
  times and features — and writes back block t of the result — batch element t, all channel pairs and features.
  What it writes is the body's stored value of the staged block, and that is `GaussSpec.gauss` of the block's slab
  (BodyValue), which is the slab of batch element t of the input array: so point t writes exactly block t of
  `GaussSpec.gram` of the input. The 32 blocks tile the result array (index i lies in the block of point i₀), so the
  array ends holding `gram` of the input everywhere.
-/
import proofs.«106653_j46033459478723_1_alg».proof.Proof.Gen.KernelIdeal.Value
import proofs.«106653_j46033459478723_1_alg».proof.Proof.BodyValue

noncomputable section

namespace Cert.KernelIdeal.ArrayValue

open Cert.KernelIdeal Cert.KernelIdeal.Gen Idealize.ShloMosaic Idealize.ShloMosaic.TcCoe Idealize.SL.Sem
open Idealize.ShloMosaic.ValueIdx Cert.GaussSpec
open Idealize.ShloMosaic.Pipeline (Dat)

variable (m : (ℓ : Loc nD τ sig) → Buf (Elt Ideal) ℓ) (ρ : Dev nD → PrngReg)

theorem zeros : (![0, 0, 0, 0] : Fin 4 → Nat) = fun _ => 0 := funext fun a => by fin_cases a <;> rfl

/-- At grid point t both windows sit on batch element t, at the origin of the other three axes. -/
theorem point_blocks : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0 :=
  (by decide +kernel : ∀ t : Fin grid0.N, _)

/-- One block, over plain variables: if the staged block `x0` is batch element `n` of the array `X`, then what the body
    stores at a block index `j` is `gram X` at the array index `i` that has batch coordinate `n` and `j`'s other three
    coordinates. -/
theorem stored_is_gram (X : S32x64x1000x16.Idx → EReal) (x0 : FVec Ideal S1x64x1000x16 .f32) (n : Fin 32)
    (hx : ∀ (c : Fin 64) (t : Fin 1000) (f : Fin 16), x0 (ix4 (0 : Fin 1) c t f) = X (ix4 n c t f))
    (j : S1x64x64x16.Idx) (i : S32x64x64x16.Idx)
    (h0 : (i 0).val = n.val) (h1 : (i 1).val = (j 1).val) (h2 : (i 2).val = (j 2).val) (h3 : (i 3).val = (j 3).val) :
    k0_pay1 (F := Ideal) x0 j = gram X i := by
  obtain ⟨u, c, d, f, rfl⟩ : ∃ (u : Fin 1) (c d : Fin 64) (f : Fin 16), j = ix4 u c d f := ⟨j 0, j 1, j 2, j 3, eq_ix4 j⟩
  obtain ⟨n', c', d', f', rfl⟩ : ∃ (n' : Fin 32) (c' d' : Fin 64) (f' : Fin 16), i = ix4 n' c' d' f' :=
    ⟨i 0, i 1, i 2, i 3, eq_ix4 i⟩
  obtain rfl : n' = n := Fin.ext h0
  obtain rfl : c' = c := Fin.ext h1
  obtain rfl : d' = d := Fin.ext h2
  obtain rfl : f' = f := Fin.ext h3
  rw [Body.stored_apply]
  have hs : Body.slabOf x0 = slabAt X n' := funext fun c => funext fun t => funext fun f => hx c t f
  rw [hs]
  rfl

/-- What point t writes back is block t of `gram` of the input array. -/
theorem flushed_eq (c : Dev nD) (t : Fin cfg0.N) :
    (dats m 0 c).flushed 1 t = ((cfg0.win 1).blk t).view.read (Elt Ideal) (gram (V m c main_arg0)) := by
  show (cfg0.win 1).cut (grid0.coords t) ((dats m 0 c).after 1 t) = _
  rw [after0_1]
  unfold out0_1
  rw [View.canon_unit_zero zeros]
  simp only [View.ld_unit_zero (S := S1x64x1000x16) zeros]
  obtain ⟨a0, a1, a2, a3, b0, b1, b2, b3⟩ := point_blocks t
  have ht : t.val < 32 := lt_of_lt_of_eq t.isLt N_0
  funext j
  show k0_pay1 (F := Ideal) (iblk m c 0 t) j = gram (V m c main_arg0) (((cfg0.win 1).blk t).view.emb j)
  refine stored_is_gram (V m c main_arg0) (iblk m c 0 t) ⟨t.val, ht⟩ (fun cc tt ff => ?_) j _ ?_ ?_ ?_ ?_
  · show V m c main_arg0 (((cfg0.win 0).blk t).view.emb (ix4 (0 : Fin 1) cc tt ff)) = V m c main_arg0 (ix4 ⟨t.val, ht⟩ cc tt ff)
    refine congrArg (V m c main_arg0) (funext fun a => Fin.ext ?_)
    match a with
    | ⟨0, _⟩ => show win0_0.index t (0 : Fin 4) * 1 + 1 * 0 = t.val; omega
    | ⟨1, _⟩ => show win0_0.index t (1 : Fin 4) * 64 + 1 * cc.val = cc.val; omega
    | ⟨2, _⟩ => show win0_0.index t (2 : Fin 4) * 1000 + 1 * tt.val = tt.val; omega
    | ⟨3, _⟩ => show win0_0.index t (3 : Fin 4) * 16 + 1 * ff.val = ff.val; omega
  · show win0_1.index t (0 : Fin 4) * 1 + 1 * (j 0).val = t.val
    have hj : (j 0).val < 1 := (j 0).isLt
    omega
  · show win0_1.index t (1 : Fin 4) * 64 + 1 * (j 1).val = (j 1).val; omega
  · show win0_1.index t (2 : Fin 4) * 64 + 1 * (j 2).val = (j 2).val; omega
  · show win0_1.index t (3 : Fin 4) * 16 + 1 * (j 3).val = (j 3).val; omega

/-- An index of the result array is in point t's block iff each coordinate is in the block's range on its axis. -/
theorem mem_block (t : Fin cfg0.N) (i : S32x64x64x16.Idx) :
    i ∈ ((cfg0.win 1).blk t).view.set ↔ ∀ a : Fin 4, win0_1.index t a * S1x64x64x16.size a ≤ (i a).val
      ∧ (i a).val < win0_1.index t a * S1x64x64x16.size a + S1x64x64x16.size a := by
  show i ∈ ((View.whole main_v0).slice (win0_1.rect t)).set ↔ _
  rw [View.set_slice_whole, Rect.mem_set_unit]
  exact Iff.rfl

/-- Every index of the result array lies in the block of the point named by its batch coordinate. -/
theorem covered (i : S32x64x64x16.Idx) :
    ∃ t : Fin cfg0.N, (cfg0.win 1).flush t = true ∧ i ∈ ((cfg0.win 1).blk t).view.set := by
  have hi0 : (i 0).val < 32 := (i 0).isLt
  have hi1 : (i 1).val < 64 := (i 1).isLt
  have hi2 : (i 2).val < 64 := (i 2).isLt
  have hi3 : (i 3).val < 16 := (i 3).isLt
  obtain ⟨t, ht⟩ : ∃ t : Fin cfg0.N, t.val = (i 0).val := ⟨⟨(i 0).val, lt_of_lt_of_eq hi0 N_0.symm⟩, rfl⟩
  obtain ⟨-, -, -, -, b0, b1, b2, b3⟩ := point_blocks t
  refine ⟨t, flush0_1 t, ?_⟩
  rw [mem_block]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 64 ≤ (i 1).val ∧ (i 1).val < win0_1.index t (1 : Fin 4) * 64 + 64; omega
  | ⟨2, _⟩ => show win0_1.index t (2 : Fin 4) * 64 ≤ (i 2).val ∧ (i 2).val < win0_1.index t (2 : Fin 4) * 64 + 64; omega
  | ⟨3, _⟩ => show win0_1.index t (3 : Fin 4) * 16 ≤ (i 3).val ∧ (i 3).val < win0_1.index t (3 : Fin 4) * 16 + 16; omega

/-- The result array after the run is `gram` of the input array. -/
theorem final (c : Dev nD) : (dats m 0 c).arrAt 1 cfg0.N = gram (m ((c : Thread nD τ).loc main_arg0)) :=
  (dats m 0 c).arrAt_eq_of_cover 1 (gram (V m c main_arg0)) (fun t _ => flushed_eq m c t) covered

/-- The kernel's run, read: the result array ends at `gram` of the argument, the argument unchanged. -/
theorem run : θ_run defs (onTc (τ := τ) (main (F := Ideal))) ⟨m, fun _ => 0, ρ⟩ fun r => ∀ c : Dev nD,
      r.2.mem ((c : Thread nD τ).loc main_v0) = gram (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.ArrayValue

end
-- ==== Proof.RefValue.lean ====
/-
  The reference computes `GaussSpec.gram`.

  Read one operation at a time, the reference's result at (n, c, d, f) is
    exp ( (−max ((‖c‖² + ‖d‖²) − 2 · ⟨c, d⟩) 0) / 2 )
  with ‖c‖² = 0 + ∑ₜ x[n, c, t, f]², ⟨c, d⟩ = ∑ₜ x[n, c, t, f] · x[n, d, t, f], the sums taken of the array with
  its feature axis moved in front of the channel axis. The index bookkeeping is seven equations between the
  operations' index maps and plain coordinate tuples; the arithmetic is `0 + s = s` and `(−d) / 2 = d · (−½)`.
-/
import proofs.«106653_j46033459478723_1_alg».proof.Proof.Gen.ReferenceIdeal.Read
import proofs.«106653_j46033459478723_1_alg».proof.Proof.GaussSpec

noncomputable section

open scoped BigOperators

namespace Cert.ReferenceIdeal.RefValue

open Cert.ReferenceIdeal Cert.ReferenceIdeal.Gen Cert.ReferenceIdeal.Read Idealize.ShloMosaic Idealize.ShloMosaic.ValueIdx Cert.GaussSpec

/-! ## The operations' index maps at coordinate tuples -/

/-- The last transpose reads (n, c, d, f) at (n, f, c, d). -/
theorem idx14 (n : Fin 32) (c d : Fin 64) (f : Fin 16) : idx_main_v14 (ix4 n c d f) = ix4 n f c d :=
  funext fun a => Fin.ext (by match a with | ⟨0, _⟩ => rfl | ⟨1, _⟩ => rfl | ⟨2, _⟩ => rfl | ⟨3, _⟩ => rfl)

/-- The row term: spread along the last axis, it reads (n, f, c, d) at (n, f, c). -/
theorem idx6 (n : Fin 32) (f : Fin 16) (c d : Fin 64) : idx_main_v6 (ix4 n f c d) = ix4 n f c (0 : Fin 1) :=
  funext fun a => Fin.ext (by match a with | ⟨0, _⟩ => rfl | ⟨1, _⟩ => rfl | ⟨2, _⟩ => rfl | ⟨3, _⟩ => rfl)
theorem idx4 (n : Fin 32) (f : Fin 16) (c : Fin 64) (u : Fin 1) : idx_main_v4 (ix4 n f c u) = ix3 n f c :=
  funext fun a => Fin.ext (by match a with | ⟨0, _⟩ => rfl | ⟨1, _⟩ => rfl | ⟨2, _⟩ => rfl)

/-- The column term: spread along the third axis, it reads (n, f, c, d) at (n, f, d). -/
theorem idx7 (n : Fin 32) (f : Fin 16) (c d : Fin 64) : idx_main_v7 (ix4 n f c d) = ix4 n f (0 : Fin 1) d :=
  funext fun a => Fin.ext (by match a with | ⟨0, _⟩ => rfl | ⟨1, _⟩ => rfl | ⟨2, _⟩ => rfl | ⟨3, _⟩ => rfl)
theorem idx5 (n : Fin 32) (f : Fin 16) (u : Fin 1) (d : Fin 64) : idx_main_v5 (ix4 n f u d) = ix3 n f d :=
  funext fun a => Fin.ext (by match a with | ⟨0, _⟩ => rfl | ⟨1, _⟩ => rfl | ⟨2, _⟩ => rfl)

/-- The sum over time reads (n, f, c) at (n, f, c, t), -/
theorem idx2 (n : Fin 32) (f : Fin 16) (c : Fin 64) (t : Fin 1000) : idx_main_v2 (ix3 n f c) t = ix4 n f c t :=
  funext fun a => Fin.ext (by match a with | ⟨0, _⟩ => rfl | ⟨1, _⟩ => rfl | ⟨2, _⟩ => rfl | ⟨3, _⟩ => rfl)

/-- and the first transpose reads (n, f, c, t) of its result at (n, c, t, f) of the input. -/
theorem idx0 (n : Fin 32) (f : Fin 16) (c : Fin 64) (t : Fin 1000) : idx_main_v0 (ix4 n f c t) = ix4 n c t f :=
  funext fun a => Fin.ext (by match a with | ⟨0, _⟩ => rfl | ⟨1, _⟩ => rfl | ⟨2, _⟩ => rfl | ⟨3, _⟩ => rfl)

/-- The batched product's left factor at (n, f, c, d) and time t is entry (n, f, c, t), -/
theorem lidx3 (n : Fin 32) (f : Fin 16) (c d : Fin 64) (t : Fin 1000) : lidx_main_v3 (ix4 n f c d) t = ix4 n f c t :=
  funext fun a => Fin.ext (by match a with | ⟨0, _⟩ => rfl | ⟨1, _⟩ => rfl | ⟨2, _⟩ => rfl | ⟨3, _⟩ => rfl)

/-- its right factor entry (n, f, d, t). -/
theorem ridx3 (n : Fin 32) (f : Fin 16) (c d : Fin 64) (t : Fin 1000) : ridx_main_v3 (ix4 n f c d) t = ix4 n f d t :=
  funext fun a => Fin.ext (by match a with | ⟨0, _⟩ => rfl | ⟨1, _⟩ => rfl | ⟨2, _⟩ => rfl | ⟨3, _⟩ => rfl)

/-- A sum started from the zero word is the sum. -/
theorem zero_word_add (s : EReal) : Ideal.ofBits .f32 0x00000000#32 + s = s := by
  rw [Ideal.ofBits_zero_f32, zero_add]

/-! ## The reference's last stage is the specification -/

theorem result_eq (x : (⟨S32x64x1000x16, .f32⟩ : BufTy).Contents (Elt Ideal)) :
    val_main_v18 (F := Ideal) x = gram x := by
  funext i
  obtain ⟨n, c, d, f, rfl⟩ : ∃ (n : Fin 32) (c d : Fin 64) (f : Fin 16), i = ix4 n c d f := ⟨i 0, i 1, i 2, i 3, eq_ix4 i⟩
  simp only [val_main_v18_apply, val_main_v17_apply, val_main_v16_apply, val_main_cst_2_apply, val_main_v15_apply,
    val_main_v14_apply, idx14, val_main_v13_apply, val_main_v12_apply, val_main_cst_1_apply, val_main_v11_apply,
    val_main_v10_apply, val_main_v9_apply, val_main_cst_0_apply, val_main_v8_apply, val_main_v7_apply, idx7,
    val_main_v6_apply, idx6, val_main_v5_apply, idx5, val_main_v4_apply, idx4, val_main_v3_apply, lidx3, ridx3,
    val_main_v2_apply, idx2, val_main_v1_apply, val_main_v0_apply, idx0, val_main_cst_apply,
    Ideal.hostUnary_exp_def, Ideal.hostDivf_def, Ideal.hostNegf_def, Ideal.negf_def, Ideal.ofBits_def, Ideal.maximumf_def,
    Ideal.subf_def, Ideal.addf_def, Ideal.mulf_def]
  rw [neg_div_two, zero_word_add, zero_word_add]
  rfl

end Cert.ReferenceIdeal.RefValue

end
-- ==== Proof.lean ====
/-
  A Gaussian kernel matrix over channel pairs, and its jnp reference, compute the same extended reals.

  Input x : [32, 64, 1000, 16] (batch, channel, time, feature). For each batch element n and feature f the result at
  (n, c, d, f) is exp(−½ · max(‖x_c‖² + ‖x_d‖² − 2⟨x_c, x_d⟩, 0)), the norms and inner products taken over time.
  The kernel does this one batch element per grid point, on a block with the feature axis rotated to the front, with
  a lane reduction for the norms and a batched matrix product for the inner products, and scales by the literal −½;
  the reference does it on the whole array with one transpose, a host sum and a batched dot_general, negates and
  divides by 2. On the extended reals the two sums and the two products are the same sums, and
  (−d) / 2 = d · (−½) for every d, infinite ones included, so no finiteness of the input is used.

  * `GaussSpec`    the function both compute, and the one arithmetic law;
  * `BodyValue`    the kernel body's stored block at an index is that function of the staged block;
  * `KernelArray`  the 32 written blocks tile the result array, which therefore is that function of the input;
  * `RefValue`     the reference's last stage, read operation by operation, is that function of the input.
  The three frames are the generated frame runs; nothing was rewritten by the idealization, so `preserves` is trivial.
-/
import proofs.«106653_j46033459478723_1_alg».proof.Defs
import proofs.«106653_j46033459478723_1_alg».proof.Proof.Gen.Kernel
import proofs.«106653_j46033459478723_1_alg».proof.Proof.Gen.Kernel.Skeleton
import proofs.«106653_j46033459478723_1_alg».proof.Proof.Gen.Kernel.Launch
import proofs.«106653_j46033459478723_1_alg».proof.Proof.Gen.Kernel.Points
import proofs.«106653_j46033459478723_1_alg».proof.Proof.Gen.Kernel.Frame
import proofs.«106653_j46033459478723_1_alg».proof.Proof.Gen.KernelIdeal
import proofs.«106653_j46033459478723_1_alg».proof.Proof.Gen.KernelIdeal.Skeleton
import proofs.«106653_j46033459478723_1_alg».proof.Proof.Gen.KernelIdeal.Launch
import proofs.«106653_j46033459478723_1_alg».proof.Proof.Gen.KernelIdeal.Points
import proofs.«106653_j46033459478723_1_alg».proof.Proof.Gen.KernelIdeal.Frame
import proofs.«106653_j46033459478723_1_alg».proof.Proof.Gen.ReferenceIdeal
import proofs.«106653_j46033459478723_1_alg».proof.Proof.Gen.Pre_finite_inputs
import proofs.«106653_j46033459478723_1_alg».proof.Proof.Gen.KernelIdeal.Value
import proofs.«106653_j46033459478723_1_alg».proof.Proof.Gen.ReferenceIdeal.Run
import proofs.«106653_j46033459478723_1_alg».proof.Proof.Gen.ReferenceIdeal.Read
import proofs.«106653_j46033459478723_1_alg».proof.Proof.KernelArray
import proofs.«106653_j46033459478723_1_alg».proof.Proof.RefValue
import Idealize.ShloMosaic.Adequacy
import Idealize.ShloMosaic.Init

noncomputable section

namespace Cert.Proof

open Idealize.ShloMosaic Idealize.SL.Sem Cert.Kernel

/-- The word-level kernel runs and leaves its argument unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with `GaussSpec.gram` of the argument in their result array. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.result_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
